-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x128 : Shape := ⟨3, ![2, 100000, 128]⟩
abbrev S_ : Shape := ⟨0, ![]⟩

class Facts : Prop where
  bcast_S_S2x100000x128 : S_.BroadcastsInDim S2x100000x128 (![] : Fin 0 → Fin S2x100000x128.rank)
  reducesTo_S2x100000x128_S_d0_1_2 : S2x100000x128.ReducesTo [0, 1, 2] S_
  h_S_ : 0 < S_.numel

variable [Facts]

def fn {F : FTy → Type} [FloatOps F] (main_arg0 : FVec F S2x100000x128 .f32) : IVec S_ 1 :=
  let main_v0 : FVec F S2x100000x128 .f32 := Host.absf main_arg0
  let main_cst : FVec F S_ .f32 := constant S_ .f32 0x7F800000#32
  let main_v1 : FVec F S2x100000x128 .f32 := broadcastInDim S2x100000x128 ![] bcast_S_S2x100000x128 main_cst
  let main_v2 : IVec S2x100000x128 1 := cmpf .olt main_v0 main_v1
  let main_c : IVec S_ 1 := constantI S_ 1 1#1
  let main_v3 : IVec S_ 1 := (fun x v => Host.reduce IntOp.andi x v reducesTo_S2x100000x128_S_d0_1_2 h_S_) main_v2 main_c
  main_v3
-- ==== Kernel.lean ====
abbrev S2x100000x128 : Shape := ⟨3, ![2, 100000, 128]⟩
abbrev S25x1x4000 : Shape := ⟨3, ![25, 1, 4000]⟩
abbrev S2x4000x128 : Shape := ⟨3, ![2, 4000, 128]⟩
abbrev S1x1x4000 : Shape := ⟨3, ![1, 1, 4000]⟩
abbrev S1x4000x128 : Shape := ⟨3, ![1, 4000, 128]⟩
abbrev S4000x128 : Shape := ⟨2, ![4000, 128]⟩
abbrev S128x4000 : Shape := ⟨2, ![128, 4000]⟩
abbrev S4000 : Shape := ⟨1, ![4000]⟩
abbrev S100000 : Shape := ⟨1, ![100000]⟩

abbrev nBuf : Space → Nat
  | .hbm => 3
  | .vmem => 4
  | .smem => 0
  | _ => 0

abbrev bufTy : (tb : Table) → Fin (tcTables nBuf tb) → BufTy
  | .hbm, ⟨0, _⟩ => ⟨S2x100000x128, .f32⟩
  | .hbm, ⟨1, _⟩ => ⟨S25x1x4000, .f32⟩
  | .hbm, ⟨2, _⟩ => ⟨S100000, .f32⟩
  | .local _ .vmem, ⟨0, _⟩ => ⟨S2x4000x128, .f32⟩
  | .local _ .vmem, ⟨1, _⟩ => ⟨S2x4000x128, .f32⟩
  | .local _ .vmem, ⟨2, _⟩ => ⟨S1x1x4000, .f32⟩
  | .local _ .vmem, ⟨3, _⟩ => ⟨S1x1x4000, .f32⟩
  | _, _ => ⟨S2x100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2x4000x128_S1x4000x128_0_0_0 : ∀ a, (![0, 0, 0] : Fin 3 → Nat) a + S1x4000x128.size a ≤ S2x4000x128.size a
  h_S1x4000x128 : 0 < S1x4000x128.numel
  shapeCasts_S1x4000x128_S4000x128 : S1x4000x128.ShapeCasts S4000x128
  inb_S2x4000x128_S1x4000x128_1_0_0 : ∀ a, (![1, 0, 0] : Fin 3 → Nat) a + S1x4000x128.size a ≤ S2x4000x128.size a
  transposes_S4000x128_p1_0_S128x4000 : S4000x128.Transposes [1, 0] S128x4000
  reduces_S128x4000_S4000 : S128x4000.Reduces [0] S4000
  shapeCasts_S4000_S1x1x4000 : S4000.ShapeCasts S1x1x4000
  inb_S1x1x4000_S1x1x4000_0_0_0 : ∀ a, (![0, 0, 0] : Fin 3 → Nat) a + S1x1x4000.size a ≤ S1x1x4000.size a
  h_S1x1x4000 : 0 < S1x1x4000.numel
  shapeCasts_S25x1x4000_S100000 : S25x1x4000.ShapeCasts S100000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x4000x128.size a ≤ S2x100000x128.size a
  hwx0_0 : ∀ i : grid0.Coords, EltTy.bits .f32 = 32 ∨ (Rect.block (s := S2x100000x128) S2x4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4000.size a ≤ S25x1x4000.size a
  hwx0_1 : ∀ i : grid0.Coords, EltTy.bits .f32 = 32 ∨ (Rect.block (s := S25x1x4000) S1x1x4000.size (cc0_transform_1 i) (hinb0_1 i)).WholeWords (EltTy.packing .f32)

variable [Facts₀]

abbrev win0_0 : Pipeline.Window sig grid0 :=
  Pipeline.Window.ofSpec (Memref.whole main_arg0) S2x4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x100000x128 : Shape := ⟨3, ![2, 100000, 128]⟩
abbrev S1x100000x128 : Shape := ⟨3, ![1, 100000, 128]⟩
abbrev S100000x128 : Shape := ⟨2, ![100000, 128]⟩
abbrev S_ : Shape := ⟨0, ![]⟩
abbrev S100000 : Shape := ⟨1, ![100000]⟩

abbrev nBuf : Space → Nat
  | .hbm => 8
  | .vmem => 0
  | .smem => 0
  | _ => 0

abbrev bufTy : (tb : Table) → Fin (tcTables nBuf tb) → BufTy
  | .hbm, ⟨0, _⟩ => ⟨S2x100000x128, .f32⟩
  | .hbm, ⟨1, _⟩ => ⟨S1x100000x128, .f32⟩
  | .hbm, ⟨2, _⟩ => ⟨S100000x128, .f32⟩
  | .hbm, ⟨3, _⟩ => ⟨S1x100000x128, .f32⟩
  | .hbm, ⟨4, _⟩ => ⟨S100000x128, .f32⟩
  | .hbm, ⟨5, _⟩ => ⟨S100000x128, .f32⟩
  | .hbm, ⟨6, _⟩ => ⟨S_, .f32⟩
  | .hbm, ⟨7, _⟩ => ⟨S100000, .f32⟩
  | _, _ => ⟨S2x100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S2x100000x128_S1x100000x128_0_0_0 : S2x100000x128.Slices ![0, 0, 0] S1x100000x128
  shapeCasts_S1x100000x128_S100000x128 : S1x100000x128.ShapeCasts S100000x128
  slices_S2x100000x128_S1x100000x128_1_0_0 : S2x100000x128.Slices ![1, 0, 0] S1x100000x128
  reducesTo_S100000x128_S100000_d1 : S100000x128.ReducesTo [1] S100000
  h_S_ : 0 < S_.numel

variable [Facts₀]

class Facts : Prop extends Facts₀ where

variable [Facts]
-- ==== Proof.RowDot.lean ====
/-
  The mathematics of this certificate, stated away from either program.

  The input is a stack of two matrices, `x : [2, 100000, 128]`, read as extended reals.  The result is the
  ROW-WISE DOT PRODUCT of the two matrices,

      rowDot x i = ∑ k < 128, x[0, i, k] · x[1, i, k]        for each row i < 100000.

  One program produces these numbers row by row in a vector of length 100000; the other produces them in 25
  consecutive blocks of 4000 rows, arranged as an array of shape [25, 1, 4000], and then flattens that array in row-major
  order.  `rowDotBlocks` is the blocked arrangement (entry (t, 0, r) is the dot product of row 4000·t + r), and
  `reshape_rowDotBlocks` says that flattening it gives `rowDot`: position (t, 0, r) of a [25, 1, 4000] array is
  row-major position 4000·t + r, so row i is found at block i / 4000, offset i % 4000.

  Nothing here needs the entries to be finite: both sides are the same finite sum of the same products.
-/
import Idealize.ShloMosaic.PureOps.Ideal
import Idealize.ShloMosaic.Lib.ValueIdx
import Idealize.ShloMosaic.Lib.Pipeline.Value

noncomputable section

namespace Cert.RowDot

open Idealize.ShloMosaic Idealize.ShloMosaic.ValueIdx

/-- The dot product of row `i` of the first matrix with row `i` of the second, over the 128 columns. -/
def rowDot (x : (⟨3, ![2, 100000, 128]⟩ : Shape).Idx → EReal) : (⟨1, ![100000]⟩ : Shape).Idx → EReal :=
  fun i => ∑ k : Fin 128, x (ix3 (0 : Fin 2) (i 0) k) * x (ix3 (1 : Fin 2) (i 0) k)

/-- Row number 4000·t + r: row `r` of the `t`-th block of 4000 consecutive rows. -/
def blockRow (t : Fin 25) (r : Fin 4000) : Fin 100000 :=
  ⟨t.val * 4000 + r.val, by have ht := t.isLt; have hr := r.isLt; omega⟩

/-- The same dot products arranged in 25 blocks of 4000 rows: entry (t, 0, r) belongs to row 4000·t + r. -/
def rowDotBlocks (x : (⟨3, ![2, 100000, 128]⟩ : Shape).Idx → EReal) : (⟨3, ![25, 1, 4000]⟩ : Shape).Idx → EReal :=
  fun j => rowDot x (ix1 (blockRow (j 0) (j 2)))

/-- The blocked arrangement at explicit coordinates. -/
theorem rowDotBlocks_apply (x : (⟨3, ![2, 100000, 128]⟩ : Shape).Idx → EReal) (t : Fin 25) (u : Fin 1) (r : Fin 4000) :
    rowDotBlocks x (ix3 t u r)
      = ∑ k : Fin 128, x (ix3 (0 : Fin 2) (blockRow t r) k) * x (ix3 (1 : Fin 2) (blockRow t r) k) := rfl

/-- Flattening the blocked arrangement in row-major order gives the row-wise result: row `i` sits in block
    `i / 4000` at offset `i % 4000`, and 4000 · (i / 4000) + i % 4000 = i. -/
theorem reshape_rowDotBlocks (x : (⟨3, ![2, 100000, 128]⟩ : Shape).Idx → EReal)
    (h : (⟨3, ![25, 1, 4000]⟩ : Shape).ShapeCasts ⟨1, ![100000]⟩) :
    shapeCast ⟨1, ![100000]⟩ (rowDotBlocks x) h = rowDot x := by
  funext i
  have hi : (i 0).val < 100000 := (i 0).isLt
  refine (shapeCast_apply (rowDotBlocks x) h i
    (ix3 (⟨(i 0).val / 4000, by omega⟩ : Fin 25) (0 : Fin 1) (⟨(i 0).val % 4000, by omega⟩ : Fin 4000)) ?_).trans ?_
  · rw [Shape.rowMajor_val_three, Shape.rowMajor_val_one]
    show ((i 0).val / 4000 * 1 + 0) * 4000 + (i 0).val % 4000 = (i 0).val
    omega
  · show rowDot x (ix1 (blockRow ⟨(i 0).val / 4000, _⟩ ⟨(i 0).val % 4000, _⟩)) = rowDot x i
    refine congrArg (rowDot x) (funext fun d => ?_)
    match d with
    | ⟨0, _⟩ => exact Fin.ext (by show (i 0).val / 4000 * 4000 + (i 0).val % 4000 = (i 0).val; omega)

end Cert.RowDot

end
-- ==== Proof.ReferenceRowDot.lean ====
/-
  The reference program computes the row-wise dot product.

  Read one operation at a time, the reference slices the two matrices out of the stacked input, drops the leading
  unit axis of each, multiplies them entry by entry and sums every row over its 128 columns, starting from the
  constant zero.  At row `i`, column `k`, the two factors are the input at (0, i, k) and (1, i, k): the slice keeps the
  row and column and fixes the leading coordinate, and the reshape of [1, 100000, 128] to [100000, 128] sends position
  (i, k) to (0, (128·i + k) / 128, (128·i + k) % 128) = (0, i, k).  The initial value of the sum is the float zero,
  which is the real number 0, so the result at row `i` is exactly `rowDot x i`.
-/
import proofs.«108307_g35107062678319_cont_8to1_b_364_7_alg».proof.Proof.Gen.ReferenceIdeal.Read
import proofs.«108307_g35107062678319_cont_8to1_b_364_7_alg».proof.Proof.RowDot
import Idealize.ShloMosaic.PureOps.Ideal.Laws

noncomputable section

namespace Cert.ReferenceIdeal.RowDotValue

open Cert.ReferenceIdeal Cert.ReferenceIdeal.Read Cert.RowDot
open Idealize.ShloMosaic Idealize.ShloMosaic.ValueIdx

/-- Through the first slice and its reshape, entry (i, k) of the left factor is the input at (0, i, k). -/
theorem left_index (i : Fin 100000) (k : Fin 128) :
    idx_main_v0 (idx_main_v1 (idx_main_v5 (ix1 i) k)) = ix3 (0 : Fin 2) i k := by
  have hi : i.val < 100000 := i.isLt
  have hk : k.val < 128 := k.isLt
  funext a
  apply Fin.ext
  match a with
  | ⟨0, _⟩ => rfl
  | ⟨1, _⟩ => show (i.val * 128 + k.val) / 128 % 100000 = i.val; omega
  | ⟨2, _⟩ => show (i.val * 128 + k.val) % 128 = k.val; omega

/-- Through the second slice and its reshape, entry (i, k) of the right factor is the input at (1, i, k). -/
theorem right_index (i : Fin 100000) (k : Fin 128) :
    idx_main_v2 (idx_main_v3 (idx_main_v5 (ix1 i) k)) = ix3 (1 : Fin 2) i k := by
  have hi : i.val < 100000 := i.isLt
  have hk : k.val < 128 := k.isLt
  funext a
  apply Fin.ext
  match a with
  | ⟨0, _⟩ => rfl
  | ⟨1, _⟩ => show (i.val * 128 + k.val) / 128 % 100000 = i.val; omega
  | ⟨2, _⟩ => show (i.val * 128 + k.val) % 128 = k.val; omega

/-- The reference's last stage, the row sums of the entrywise product, is the row-wise dot product of the input. -/
theorem result_eq (x : (⟨S2x100000x128, .f32⟩ : BufTy).Contents (Elt Ideal)) :
    val_main_v5 (F := Ideal) x = rowDot x := by
  funext j
  obtain ⟨i, rfl⟩ : ∃ i : Fin 100000, j = ix1 i := ⟨j 0, eq_ix1 j⟩
  rw [val_main_v5_apply, val_main_cst_apply]
  show Ideal.ofBits .f32 0x00000000#32 + _ = _
  rw [Ideal.ofBits_zero_f32, zero_add]
  show _ = ∑ k : Fin 128, x (ix3 (0 : Fin 2) i k) * x (ix3 (1 : Fin 2) i k)
  refine Finset.sum_congr rfl fun k _ => ?_
  rw [val_main_v4_apply, val_main_v1_apply, val_main_v0_apply, val_main_v3_apply, val_main_v2_apply,
    left_index, right_index]
  rfl

end Cert.ReferenceIdeal.RowDotValue

end
-- ==== Proof.BlockRowDot.lean ====
/-
  What the kernel's body stores for one block of 4000 rows, read entry by entry.

  The body loads the two [4000, 128] slabs of its input block (both with a leading unit axis, which it drops), multiplies
  them entry by entry, TRANSPOSES the product to [128, 4000] and sums over the first axis, so that entry `r` of the
  resulting vector of length 4000 is the sum over the 128 positions `k` of the transposed product at (k, r) — which is
  the product at (r, k).  The vector is stored with two leading unit axes.  So the stored block at (0, 0, r) is

      ∑ k < 128, a[0, r, k] · b[0, r, k],

  the dot product of row `r` of one slab with row `r` of the other.  The sum starts from the additive neutral element, so
  there is no initial term.
-/
import proofs.«108307_g35107062678319_cont_8to1_b_364_7_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen
open Idealize.ShloMosaic Idealize.ShloMosaic.ValueIdx

/-- The sum over the first axis of a [128, 4000] array of extended reals, at column `r`, is the sum of that column's
    128 entries. -/
theorem columnSum_apply (src : FVec Ideal S128x4000 .f32) (h : S128x4000.Reduces [0] S4000) (hφ : FKind.Formats .f32)
    (hacc : (0x00000000#32 : BitVec 32) = 0x00000000#32) (r : Fin 4000) :
    multiReduction (F := Ideal) .add [0] S4000 src 0x00000000#32 h hφ hacc (ix1 r) = ∑ k : Fin 128, src (ix2 k r) := by
  refine (Ideal.multiReduction_add_single src 0x00000000#32 h hφ hacc (ix1 r)).trans ?_
  refine Finset.sum_congr rfl fun k _ => congrArg src (funext fun a => ?_)
  match a with
  | ⟨0, _⟩ => rfl
  | ⟨1, _⟩ => rfl

/-- The stored block at (0, 0, r): the dot product of row `r` of the two loaded slabs. -/
theorem payload_apply (a b : Vec Ideal S1x4000x128 .f32) (u₁ u₂ : Fin 1) (r : Fin 4000) :
    k0_pay1 (F := Ideal) a b (ix3 u₁ u₂ r) = ∑ k : Fin 128, a (ix3 (0 : Fin 1) r k) * b (ix3 (0 : Fin 1) r k) := by
  have h₁ : u₁.val = 0 := by have := u₁.isLt; omega
  have h₂ : u₂.val = 0 := by have := u₂.isLt; omega
  unfold k0_pay1
  refine (shapeCast_apply _ shapeCasts_S4000_S1x1x4000 (ix3 u₁ u₂ r) (ix1 r) ?_).trans ?_
  · rw [Shape.rowMajor_val_one, Shape.rowMajor_val_three]
    show r.val = (u₁.val * 1 + u₂.val) * 4000 + r.val
    omega
  refine (columnSum_apply _ reduces_S128x4000_S4000 (.inl rfl) rfl r).trans ?_
  refine Finset.sum_congr rfl fun k _ => ?_
  refine (transpose_ix2_apply _ transposes_S4000x128_p1_0_S128x4000 k r).trans ?_
  show shapeCast S4000x128 a shapeCasts_S1x4000x128_S4000x128 (ix2 r k)
      * shapeCast S4000x128 b shapeCasts_S1x4000x128_S4000x128 (ix2 r k) = _
  rw [shapeCast_1ab_ab_apply, shapeCast_1ab_ab_apply]

end Cert.KernelIdeal.BlockValue

end
-- ==== Proof.KernelRowDot.lean ====
/-
  The kernel's result array, as one function of its input.

  The kernel runs on a grid of 25 points.  At point `t` it is given rows 4000·t … 4000·t + 3999 of both matrices (the
  block of the input at block index (0, t, 0), of shape [2, 4000, 128]) and writes back one block of shape [1, 1, 4000] at
  block index (t, 0, 0) of an intermediate array of shape [25, 1, 4000].  By the entry-by-entry reading of the body, entry
  (0, 0, r) of what point `t` writes is the dot product of row 4000·t + r — entry (t, 0, r) of the blocked arrangement
  `rowDotBlocks` of the input.  The 25 blocks tile the intermediate array (entry (t, u, r) lies in the block of point
  `t`), so after the run the intermediate array IS `rowDotBlocks` of the input.  The program's last operation flattens it
  to a vector of length 100000, which is `rowDot` of the input.
-/
import proofs.«108307_g35107062678319_cont_8to1_b_364_7_alg».proof.Proof.Gen.KernelIdeal.Frame
import proofs.«108307_g35107062678319_cont_8to1_b_364_7_alg».proof.Proof.RowDot
import proofs.«108307_g35107062678319_cont_8to1_b_364_7_alg».proof.Proof.BlockRowDot
import Idealize.ShloMosaic.Lib.Pipeline.Value
import Idealize.ShloMosaic.Lib.StableHlo.Run
import Idealize.ShloMosaic.Lib.Tactic

noncomputable section

namespace Cert.KernelIdeal.ArrayValue

open Cert.KernelIdeal Cert.KernelIdeal.Gen Cert.KernelIdeal.BlockValue Cert.RowDot
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0, 0] : Fin 3 → Nat) = fun _ => 0 := funext fun a => by fin_cases a <;> rfl

/-- A grid point as a number below 25. -/
abbrev pointNo (t : Fin cfg0.N) : Fin 25 := Fin.cast N_0 t

/-- The two index maps over the grid: the input's block index at point `t` is (0, t, 0), the output's (t, 0, 0). -/
theorem index_maps : ∀ t : Fin cfg0.N,
    win0_0.index t (0 : Fin 3) = 0 ∧ win0_0.index t (1 : Fin 3) = t.val ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-! ## One block -/

/-- If a [2, 4000, 128] block holds rows 4000·t … 4000·t + 3999 of both matrices of `X`, then what the body stores from
    it, at an entry whose position in the [25, 1, 4000] array is `J` = (t, ·, r), is the blocked dot product at `J`. -/
theorem stored_eq_rowDotBlocks (X : Vec Ideal S2x100000x128 .f32) (blk : Vec Ideal S2x4000x128 .f32) (t : Fin 25)
    (hblk : ∀ (s : Fin 2) (r : Fin 4000) (k : Fin 128), blk (ix3 s r k) = X (ix3 s (blockRow t r) k))
    (j : S1x1x4000.Idx) (J : S25x1x4000.Idx) (hJ0 : (J 0).val = t.val) (hJ2 : (J 2).val = (j 2).val) :
    k0_pay1 (F := Ideal) (View.ld blk r0_0) (View.ld blk r0_1) j = rowDotBlocks X J := by
  obtain ⟨u₁, u₂, r, rfl⟩ : ∃ (u₁ u₂ : Fin 1) (r : Fin 4000), j = ix3 u₁ u₂ r := ⟨j 0, j 1, j 2, eq_ix3 j⟩
  refine (payload_apply _ _ u₁ u₂ r).trans ?_
  have hrow : blockRow (J 0) (J 2) = blockRow t r :=
    Fin.ext (by show (J 0).val * 4000 + (J 2).val = t.val * 4000 + r.val; rw [hJ0, hJ2])
  show _ = ∑ k : Fin 128, X (ix3 (0 : Fin 2) (blockRow (J 0) (J 2)) k) * X (ix3 (1 : Fin 2) (blockRow (J 0) (J 2)) k)
  rw [hrow]
  refine Finset.sum_congr rfl fun k _ => ?_
  have e0 : View.ld blk r0_0 (ix3 (0 : Fin 1) r k) = blk (ix3 (0 : Fin 2) r k) :=
    congrArg blk (funext fun a => Fin.ext (by
      match a with
      | ⟨0, _⟩ => rfl
      | ⟨1, _⟩ => show 0 + 1 * r.val = r.val; omega
      | ⟨2, _⟩ => show 0 + 1 * k.val = k.val; omega))
  have e1 : View.ld blk r0_1 (ix3 (0 : Fin 1) r k) = blk (ix3 (1 : Fin 2) r k) :=
    congrArg blk (funext fun a => Fin.ext (by
      match a with
      | ⟨0, _⟩ => rfl
      | ⟨1, _⟩ => show 0 + 1 * r.val = r.val; omega
      | ⟨2, _⟩ => show 0 + 1 * k.val = k.val; omega))
  rw [e0, e1, hblk, hblk]

/-! ## What a point writes back, and the intermediate array after the run -/

/-- What point `t` writes back is block `t` of the blocked dot product of the input as the region finds it. -/
theorem flushed_eq (c : Dev nD) (t : Fin cfg0.N) :
    (dats m 0 c).flushed 1 t = ((cfg0.win 1).blk t).view.read (Elt Ideal) (rowDotBlocks (V m c main_arg0)) := by
  show (cfg0.win 1).cut (grid0.coords t) ((dats m 0 c).after 1 t) = _
  rw [after0_1]
  unfold out0_1
  rw [View.canon_unit_zero zero_offsets]
  obtain ⟨a0, a1, a2, b0, b1, b2⟩ := index_maps t
  funext j
  show k0_pay1 (F := Ideal) (View.ld (iblk m c 0 t) r0_0) (View.ld (iblk m c 0 t) r0_1) j
      = rowDotBlocks (V m c main_arg0) (((cfg0.win 1).blk t).view.emb j)
  refine stored_eq_rowDotBlocks (V m c main_arg0) (iblk m c 0 t) (pointNo t) ?_ j (((cfg0.win 1).blk t).view.emb j) ?_ ?_
  · intro s r k
    show V m c main_arg0 (((cfg0.win 0).blk t).view.emb (ix3 s r k)) = _
    refine congrArg (V m c main_arg0) (funext fun a => Fin.ext ?_)
    match a with
    | ⟨0, _⟩ => show win0_0.index t (0 : Fin 3) * 2 + 1 * s.val = s.val; omega
    | ⟨1, _⟩ => show win0_0.index t (1 : Fin 3) * 4000 + 1 * r.val = t.val * 4000 + r.val; omega
    | ⟨2, _⟩ => show win0_0.index t (2 : Fin 3) * 128 + 1 * k.val = k.val; omega
  · have hj : (j 0).val < 1 := (j 0).isLt
    show win0_1.index t (0 : Fin 3) * 1 + 1 * (j 0).val = t.val
    omega
  · show win0_1.index t (2 : Fin 3) * 4000 + 1 * (j 2).val = (j 2).val
    omega

/-- An entry of the [25, 1, 4000] array is in point `t`'s block iff each coordinate is in the block's range. -/
theorem mem_block (t : Fin cfg0.N) (i : S25x1x4000.Idx) :
    i ∈ ((cfg0.win 1).blk t).view.set ↔ ∀ a : Fin 3, win0_1.index t a * S1x1x4000.size a ≤ (i a).val
      ∧ (i a).val < win0_1.index t a * S1x1x4000.size a + S1x1x4000.size a := by
  show i ∈ ((View.whole main_v0).slice (win0_1.rect t)).set ↔ _
  rw [View.set_slice_whole, Rect.mem_set_unit]
  exact Iff.rfl

/-- Every entry (t, u, r) is in the block of point `t`, which writes back. -/
theorem covered (i : S25x1x4000.Idx) :
    ∃ t : Fin cfg0.N, (cfg0.win 1).flush t = true ∧ i ∈ ((cfg0.win 1).blk t).view.set := by
  have h0 : (i 0).val < 25 := (i 0).isLt
  have h1 : (i 1).val < 1 := (i 1).isLt
  have h2 : (i 2).val < 4000 := (i 2).isLt
  have hN : cfg0.N = 25 := N_0
  refine ⟨⟨(i 0).val, by rw [hN]; exact h0⟩, flush0_1 _, ?_⟩
  rw [mem_block]
  obtain ⟨-, -, -, b0, b1, b2⟩ := index_maps ⟨(i 0).val, by rw [hN]; exact h0⟩
  intro a
  match a with
  | ⟨0, _⟩ =>
    show win0_1.index _ (0 : Fin 3) * 1 ≤ (i 0).val ∧ (i 0).val < win0_1.index _ (0 : Fin 3) * 1 + 1
    rw [b0]; show (i 0).val * 1 ≤ (i 0).val ∧ (i 0).val < (i 0).val * 1 + 1; omega
  | ⟨1, _⟩ =>
    show win0_1.index _ (1 : Fin 3) * 1 ≤ (i 1).val ∧ (i 1).val < win0_1.index _ (1 : Fin 3) * 1 + 1
    rw [b1]; omega
  | ⟨2, _⟩ =>
    show win0_1.index _ (2 : Fin 3) * 4000 ≤ (i 2).val ∧ (i 2).val < win0_1.index _ (2 : Fin 3) * 4000 + 4000
    rw [b2]; omega

/-- The intermediate array after the run is the blocked dot product of the input. -/
theorem blocks_final (c : Dev nD) :
    (dats m 0 c).arrAt 1 cfg0.N = rowDotBlocks (m ((c : Thread nD τ).loc main_arg0)) :=
  (dats m 0 c).arrAt_eq_of_cover 1 (rowDotBlocks (V m c main_arg0)) (fun t _ => flushed_eq m c t) covered

/-! ## The flattening after the region, and the run -/

/-- The program's result: the intermediate array flattened, which is the row-wise dot product of the input. -/
theorem result_value (c : Dev nD) :
    Pipeline.afterTail₀ cfgs (dats m) 0 (V0 m) [hostOps1] c main_v1 = rowDot (m ((c : Thread nD τ).loc main_arg0)) := by
  unfold Pipeline.afterTail₀
  show StableHlo.after hostOps1 _ (Proc.devRef .tc main_v1) = _
  after_results
  rw [Pipeline.withArrays_arr spec0 launch0.win.arr_inj c _ _ 1, blocks_final m c]
  exact reshape_rowDotBlocks _ _

/-- Every weakly fair execution of the kernel program terminates with its result at the row-wise dot product of the
    input and the input unchanged. -/
theorem run : θ_run defs (onTc (τ := τ) (main (F := Ideal))) ⟨m, fun _ => 0, ρ⟩ fun r => ∀ c : Dev nD,
      r.2.mem ((c.tc : Thread nD τ).loc main_v1) = rowDot (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (fun w => by fin_cases w <;> decide))).trans (result_value m c),
       ((h c).1 0).trans (((dats m 0 c).arrAt_in 0 rfl _).trans ((A_eq m c 0).trans (V_main_arg0 m c)))⟩)
    (run_main m ρ)

end Cert.KernelIdeal.ArrayValue

end
-- ==== Proof.lean ====
/-
  The proof of `Cert.Claim`: a Pallas kernel computing a row-wise dot product against its plain reference.

  The input is a stack of two matrices `x : [2, 100000, 128]`; both programs return, for each row `i`,

      ∑ k < 128, x[0, i, k] · x[1, i, k].

  The reference multiplies the two matrices entry by entry and sums each row, starting from zero
  (Proof/ReferenceRowDot.lean).  The kernel works through 25 blocks of 4000 rows; on each block it transposes the
  entrywise product and sums over the transposed leading axis, which is the same sum of the same 128 products
  (Proof/BlockRowDot.lean); the 25 results tile an intermediate [25, 1, 4000] array, which is then flattened
  (Proof/KernelRowDot.lean; the flattening law is in Proof/RowDot.lean).  Over the extended reals both results are the one
  function `Cert.RowDot.rowDot` of the input, term for term, so the two programs agree on every input — no finiteness
  is needed, since neither side regroups or distributes anything: the only law used is that the float zero the
  reference starts its sum from is the real number 0.

  The three frames are the generated ones (the reference's is its generated run with the result dropped), and the
  kernel's idealization rewrote no operation, so there is nothing to preserve.
-/
import proofs.«108307_g35107062678319_cont_8to1_b_364_7_alg».proof.Defs
import proofs.«108307_g35107062678319_cont_8to1_b_364_7_alg».proof.Proof.Gen.Kernel
import proofs.«108307_g35107062678319_cont_8to1_b_364_7_alg».proof.Proof.Gen.Kernel.Skeleton
import proofs.«108307_g35107062678319_cont_8to1_b_364_7_alg».proof.Proof.Gen.Kernel.Launch
import proofs.«108307_g35107062678319_cont_8to1_b_364_7_alg».proof.Proof.Gen.Kernel.Points
import proofs.«108307_g35107062678319_cont_8to1_b_364_7_alg».proof.Proof.Gen.Kernel.Frame
import proofs.«108307_g35107062678319_cont_8to1_b_364_7_alg».proof.Proof.Gen.KernelIdeal
import proofs.«108307_g35107062678319_cont_8to1_b_364_7_alg».proof.Proof.Gen.KernelIdeal.Skeleton
import proofs.«108307_g35107062678319_cont_8to1_b_364_7_alg».proof.Proof.Gen.KernelIdeal.Launch
import proofs.«108307_g35107062678319_cont_8to1_b_364_7_alg».proof.Proof.Gen.KernelIdeal.Points
import proofs.«108307_g35107062678319_cont_8to1_b_364_7_alg».proof.Proof.Gen.KernelIdeal.Frame
import proofs.«108307_g35107062678319_cont_8to1_b_364_7_alg».proof.Proof.Gen.ReferenceIdeal
import proofs.«108307_g35107062678319_cont_8to1_b_364_7_alg».proof.Proof.Gen.Pre_finite_inputs
import proofs.«108307_g35107062678319_cont_8to1_b_364_7_alg».proof.Proof.Gen.ReferenceIdeal.Run
import proofs.«108307_g35107062678319_cont_8to1_b_364_7_alg».proof.Proof.Gen.ReferenceIdeal.Read
import proofs.«108307_g35107062678319_cont_8to1_b_364_7_alg».proof.Proof.RowDot
import proofs.«108307_g35107062678319_cont_8to1_b_364_7_alg».proof.Proof.ReferenceRowDot
import proofs.«108307_g35107062678319_cont_8to1_b_364_7_alg».proof.Proof.BlockRowDot
import proofs.«108307_g35107062678319_cont_8to1_b_364_7_alg».proof.Proof.KernelRowDot
import Idealize.ShloMosaic.Adequacy
import Idealize.ShloMosaic.Init

noncomputable section

namespace Cert.Proof

open Idealize.ShloMosaic Idealize.SL.Sem

/-- The kernel as printed terminates without a fault and leaves its input unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- From inputs that agree, the kernel's result and the reference's are both the row-wise dot product of the input. -/
theorem algebraic : Cert.algebraic_KernelIdeal_ReferenceIdeal := by
  intro m ρ m' ρ' _ hagree
  refine ⟨fun c => Cert.RowDot.rowDot (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RowDotValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
